-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S8192x128 .f32) (main_arg1 : FVec F S8192x8192 .f32) (main_arg2 : FVec F S128x64 .f32) (main_arg3 : FVec F S128x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S128x8192 : Shape := ⟨2, ![128, 8192]⟩
abbrev S128 : Shape := ⟨1, ![128]⟩

abbrev nBuf : Space → Nat
  | .hbm => 11
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .local _ .vmem, ⟨0, _⟩ => ⟨S128x1, .f32⟩
  | .local _ .vmem, ⟨1, _⟩ => ⟨S128x1, .f32⟩
  | .local _ .vmem, ⟨2, _⟩ => ⟨S1x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S128x1_S64x1_0_0 : S128x1.Slices ![0, 0] S64x1
  slices_S128x1_S64x1_64_0 : S128x1.Slices ![64, 0] S64x1
  shapeCasts_S8192x1_S1x8192 : S8192x1.ShapeCasts S1x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S8192x1.size a
  hwx0_0 : ∀ i : grid0.Coords, EltTy.bits .f32 = 32 ∨ (Rect.block (s := S8192x1) S128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S8192x8192.size a
  hwx0_2 : ∀ i : grid0.Coords, EltTy.bits .f32 = 32 ∨ (Rect.block (s := S8192x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S8192x8192.size a
  hwx0_3 : ∀ i : grid0.Coords, EltTy.bits .f32 = 32 ∨ (Rect.block (s := S8192x8192) S128x8192.size (cc0_transform_3 i) (hinb0_3 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_v3) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S128x1 : Shape := ⟨2, ![128, 1]⟩
abbrev S8192x64 : Shape := ⟨2, ![8192, 64]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x64, .f32⟩
  | .hbm, ⟨3, _⟩ => ⟨S128x1, .f32⟩
  | .hbm, ⟨4, _⟩ => ⟨S8192x64, .f32⟩
  | .hbm, ⟨5, _⟩ => ⟨S64x1, .f32⟩
  | .hbm, ⟨6, _⟩ => ⟨S64x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  dot_S8192x128_S128x64_S8192x64_1_0_0_1_n_n_wf : DotDims.WF S8192x128 S128x64 S8192x64 [1] [0] [0] [1] [] []
  dot_S8192x64_S64x1_S8192x1_1_0_0_1_n_n_wf : DotDims.WF S8192x64 S64x1 S8192x1 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.Spec.lean ====
/-
  The mathematics both programs compute, stated once over plain extended reals.

  For a node i the masked logit against a node k is the leaky rectifier of s_i + t_k where the
  adjacency entry a_ik is positive, and a fixed large negative number elsewhere; a row of the result is
  the softmax of the row of masked logits: exp (x_j - M) / Σ_k exp (x_k - M), with M the row's maximum
  (taken from -∞).  Nothing here needs the entries to be finite: every step is the same operation on
  the same extended reals on both sides.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Attn

/-- The four float words the programs mention: zero, the rectifier's slope 0.2, the mask value, -∞. -/
abbrev zeroW : EReal := Ideal.ofBits .f32 0x00000000#32
abbrev slopeW : EReal := Ideal.ofBits .f32 0x3E4CCCCD#32
abbrev maskW : EReal := Ideal.ofBits .f32 0xD368D4A5#32
abbrev ninfW : EReal := Ideal.ofBits .f32 0xFF800000#32

theorem zeroW_eq : zeroW = 0 := Ideal.ofBits_zero_f32

theorem ninfW_eq : ninfW = ⊥ := by simp [ninfW, Ideal.ofBits, Ideal.ieee]

/-- The leaky rectifier with the strict test: x where x > 0, slope · x elsewhere. -/
def lrelu (x : EReal) : EReal := Scalar.select (Ideal.cmp .ogt x zeroW) x (slopeW * x)

/-- With the weak test x ≥ 0 it is the same function: the two differ only at x = 0, where x and slope · x are both 0. -/
theorem lrelu_ge (x : EReal) : Scalar.select (Ideal.cmp .oge x zeroW) x (slopeW * x) = lrelu x := by
  unfold lrelu
  rw [zeroW_eq]
  simp only [Scalar.select, Ideal.cmp]
  rcases lt_trichotomy (0 : EReal) x with h | h | h
  · simp [h, h.le]
  · subst h; simp
  · simp [not_lt.mpr h.le, not_le.mpr h]

/-- One masked logit: the rectified s + t where the adjacency entry is positive, the mask value elsewhere. -/
def logit (s t a : EReal) : EReal := Scalar.select (Ideal.cmp .ogt a zeroW) (lrelu (s + t)) maskW

/-- The maximum of a row, from -∞. -/
def rowMax {n : Nat} (x : Fin n → EReal) : EReal := (Finset.univ : Finset (Fin n)).fold max ninfW x

/-- Taking the maximum with -∞ once more changes nothing. -/
theorem max_ninf_rowMax {n : Nat} (x : Fin n → EReal) : max ninfW (rowMax x) = rowMax x := by
  rw [ninfW_eq]; exact max_eq_right bot_le

/-- The softmax of a row at position j. -/
def rowSoftmax {n : Nat} (x : Fin n → EReal) (j : Fin n) : EReal :=
  Ideal.div (Ideal.exp (x j - rowMax x)) (∑ k : Fin n, Ideal.exp (x k - rowMax x))

/-- Entry (p, q) of the attention matrix of n nodes: the softmax over row p of the masked logits of the row score s p,
    the column scores t k and the adjacency row adj p k. -/
def attnAt {n : Nat} (s t : Fin n → EReal) (adj : Fin n → Fin n → EReal) (p q : Fin n) : EReal :=
  rowSoftmax (fun k => logit (s p) (t k) (adj p k)) q

/-- The attention matrix as an array: the scores given as two columns of 8192 entries, the adjacency as an 8192 × 8192 array. -/
def attn (s t : (⟨2, ![8192, 1]⟩ : Shape).Idx → EReal) (adj : (⟨2, ![8192, 8192]⟩ : Shape).Idx → EReal) :
    (⟨2, ![8192, 8192]⟩ : Shape).Idx → EReal :=
  fun i => attnAt (fun p : Fin 8192 => s (ix2 p (0 : Fin 1))) (fun k : Fin 8192 => t (ix2 k (0 : Fin 1)))
    (fun (p k : Fin 8192) => adj (ix2 p k)) (i 0) (i 1)

theorem attn_apply (s t : (⟨2, ![8192, 1]⟩ : Shape).Idx → EReal) (adj : (⟨2, ![8192, 8192]⟩ : Shape).Idx → EReal) (p q : Fin 8192) :
    attn s t adj (ix2 p q) = attnAt (fun p : Fin 8192 => s (ix2 p (0 : Fin 1))) (fun k : Fin 8192 => t (ix2 k (0 : Fin 1)))
      (fun (p k : Fin 8192) => adj (ix2 p k)) p q := rfl

end Cert.Attn

end
-- ==== Proof.KernelBlock.lean ====
/-
  What one grid point of the kernel computes, read index by index.

  The body's stored value is one pure term of the three loaded blocks: P1, a column of 128 row scores;
  P2, the row of all 8192 column scores; P0, 128 rows of the adjacency.  At row r and column q of the
  block it is the softmax, over the row's 8192 columns, of the masked logits of (P1 r, P2 k, P0 r k).
-/
import proofs.«137884_j62234076119834_2_alg».proof.Proof.Gen.KernelIdeal.Skeleton
import proofs.«137884_j62234076119834_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open Cert.KernelIdeal Cert.KernelIdeal.Facts₀ Cert.Attn

namespace Cert.KernelIdeal.Block

/-! ## The layout operations of the body, read at an index -/

/-- A column of 128 entries broadcast along the 8192 columns reads its row's entry. -/
theorem bcol_apply (v : FVec Ideal S128x1 .f32) (r : Fin 128) (q : Fin 8192) :
    broadcastTo S128x8192 v broadcasts_S128x1_S128x8192 (ix2 r q) = v (ix2 r (0 : Fin 1)) := by
  refine broadcastTo_apply v _ (ix2 r q) (ix2 r (0 : Fin 1)) fun ax => ?_
  match ax with
  | ⟨0, _⟩ => show r.val = (if (128 : Nat) = 1 then 0 else r.val); rw [if_neg (by decide)]
  | ⟨1, _⟩ => show 0 = (if (1 : Nat) = 1 then 0 else q.val); rw [if_pos rfl]

/-- The one row broadcast along the 128 rows reads its column's entry. -/
theorem brow_apply (v : FVec Ideal S1x8192 .f32) (r : Fin 128) (q : Fin 8192) :
    broadcastTo S128x8192 v broadcasts_S1x8192_S128x8192 (ix2 r q) = v (ix2 (0 : Fin 1) q) :=
  broadcastTo_1b_ab_apply v _ r q

/-- A vector of 128 entries viewed as a column reads, at row r, entry r. -/
theorem col_apply (z : FVec Ideal S128 .f32) (r : Fin 128) :
    shapeCast S128x1 z shapeCasts_S128_S128x1 (ix2 r (0 : Fin 1)) = z (ix1 r) := by
  refine shapeCast_apply z _ (ix2 r (0 : Fin 1)) (ix1 r) ?_
  rw [Shape.rowMajor_val_one, Shape.rowMajor_val_two]
  show r.val = r.val * 1 + 0
  omega

/-- Row r with column k put back is the block index (r, k). -/
theorem lift_row (r : Fin 128) (k : Fin (S128x8192.size 1)) :
    reduces_S128x8192_S128.lift (ix1 r) k = ix2 r (⟨k.val, k.isLt⟩ : Fin 8192) := by
  funext c; apply Fin.ext
  fin_cases c <;> rfl

/-! ## The masked logits of a block -/

/-- The block of masked logits, as the body builds it from the three loads. -/
def maskedV (P0 : FVec Ideal S128x8192 .f32) (P1 : FVec Ideal S128x1 .f32) (P2 : FVec Ideal S1x8192 .f32) : FVec Ideal S128x8192 .f32 :=
  select (cmpf .ogt P0 (broadcast S128x8192 (Scalar.ofBits .f32 0x00000000#32)))
    (select (cmpf .ogt (addf (broadcastTo S128x8192 (shapeCast S128x1 P1 shapeCasts_S128x1_S128x1) broadcasts_S128x1_S128x8192) (broadcastTo S128x8192 (shapeCast S1x8192 P2 shapeCasts_S1x8192_S1x8192) broadcasts_S1x8192_S128x8192)) (broadcast S128x8192 (Scalar.ofBits .f32 0x00000000#32)))
      (addf (broadcastTo S128x8192 (shapeCast S128x1 P1 shapeCasts_S128x1_S128x1) broadcasts_S128x1_S128x8192) (broadcastTo S128x8192 (shapeCast S1x8192 P2 shapeCasts_S1x8192_S1x8192) broadcasts_S1x8192_S128x8192))
      (mulf (broadcast S128x8192 (Scalar.ofBits .f32 0x3E4CCCCD#32)) (addf (broadcastTo S128x8192 (shapeCast S128x1 P1 shapeCasts_S128x1_S128x1) broadcasts_S128x1_S128x8192) (broadcastTo S128x8192 (shapeCast S1x8192 P2 shapeCasts_S1x8192_S1x8192) broadcasts_S1x8192_S128x8192))))
    (broadcast S128x8192 (Scalar.ofBits .f32 0xD368D4A5#32))

/-- At (r, k) it is the masked logit of the row's score, the column's score and the adjacency entry. -/
theorem maskedV_apply (P0 : FVec Ideal S128x8192 .f32) (P1 : FVec Ideal S128x1 .f32) (P2 : FVec Ideal S1x8192 .f32) (r : Fin 128) (k : Fin 8192) :
    maskedV P0 P1 P2 (ix2 r k) = logit (P1 (ix2 r (0 : Fin 1))) (P2 (ix2 (0 : Fin 1) k)) (P0 (ix2 r k)) := by
  unfold maskedV logit lrelu
  simp only [select_apply, cmpf_apply, addf_apply, mulf_apply, broadcast_apply, bcol_apply, brow_apply, shapeCast_self]
  rfl

/-! ## The softmax of a block's rows -/

/-- The lane maxima of a block's rows, from -∞. -/
def rowMaxV (x : FVec Ideal S128x8192 .f32) : FVec Ideal S128 .f32 :=
  multiReduction .maximumf [1] S128 x 0xFF800000#32 reduces_S128x8192_S128 (.inl rfl) rfl

/-- exp (x - rowmax x), the row maxima broadcast back along the columns. -/
def expV (x : FVec Ideal S128x8192 .f32) : FVec Ideal S128x8192 .f32 :=
  exp (subf x (broadcastTo S128x8192 (shapeCast S128x1 (rowMaxV x) shapeCasts_S128_S128x1) broadcasts_S128x1_S128x8192))

/-- The body's softmax of a block x: exp (x - rowmax) over its row sum. -/
def softV (x : FVec Ideal S128x8192 .f32) : FVec Ideal S128x8192 .f32 :=
  divf (expV x) (broadcastTo S128x8192 (shapeCast S128x1 (multiReduction .add [1] S128 (expV x) 0x00000000#32 reduces_S128x8192_S128 (.inl rfl) rfl) shapeCasts_S128_S128x1) broadcasts_S128x1_S128x8192)

/-- The stored value is the softmax of the masked logits. -/
theorem pay_eq (P0 : FVec Ideal S128x8192 .f32) (P1 : FVec Ideal S128x1 .f32) (P2 : FVec Ideal S1x8192 .f32) :
    Gen.k0_pay1 (F := Ideal) P1 P2 P0 = softV (maskedV P0 P1 P2) := rfl

/-- The lane maximum of row r, from -∞, is the row's maximum. -/
theorem rowMaxV_apply (x : FVec Ideal S128x8192 .f32) (r : Fin 128) :
    rowMaxV x (ix1 r) = rowMax (fun k : Fin 8192 => x (ix2 r k)) := by
  unfold rowMaxV
  refine (Ideal.multiReduction_maximumf_single x 0xFF800000#32 reduces_S128x8192_S128 (.inl rfl) rfl (ix1 r)).trans ?_
  have hf : (x ∘ reduces_S128x8192_S128.lift (ix1 r)) = fun k : Fin 8192 => x (ix2 r k) :=
    funext fun k => congrArg x (lift_row r k)
  exact congrArg (fun f => Finset.fold max ninfW f (Finset.univ : Finset (Fin 8192))) hf

/-- The lane sum of row r is the sum over the row's columns. -/
theorem rowsum_apply (p : FVec Ideal S128x8192 .f32) (r : Fin 128) :
    multiReduction .add [1] S128 p 0x00000000#32 reduces_S128x8192_S128 (.inl rfl) rfl (ix1 r)
      = ∑ k : Fin 8192, p (ix2 r k) := by
  refine (Ideal.multiReduction_add_single p 0x00000000#32 reduces_S128x8192_S128 (.inl rfl) rfl (ix1 r)).trans ?_
  exact Finset.sum_congr rfl fun k _ => congrArg p (lift_row r k)

/-- exp (x - rowmax) at (r, q). -/
theorem expV_apply (x : FVec Ideal S128x8192 .f32) (r : Fin 128) (q : Fin 8192) :
    expV x (ix2 r q) = Ideal.exp (x (ix2 r q) - rowMax (fun k : Fin 8192 => x (ix2 r k))) := by
  unfold expV
  show Ideal.exp (x (ix2 r q) - broadcastTo S128x8192 (shapeCast S128x1 (rowMaxV x) shapeCasts_S128_S128x1) broadcasts_S128x1_S128x8192 (ix2 r q)) = _
  rw [bcol_apply, col_apply, rowMaxV_apply]

/-- So the body's softmax at (r, q) is the softmax of row r at q. -/
theorem softV_apply (x : FVec Ideal S128x8192 .f32) (r : Fin 128) (q : Fin 8192) :
    softV x (ix2 r q) = rowSoftmax (fun k : Fin 8192 => x (ix2 r k)) q := by
  unfold softV rowSoftmax
  show Ideal.div (expV x (ix2 r q)) (broadcastTo S128x8192 (shapeCast S128x1 (multiReduction .add [1] S128 (expV x) 0x00000000#32 reduces_S128x8192_S128 (.inl rfl) rfl) shapeCasts_S128_S128x1) broadcasts_S128x1_S128x8192 (ix2 r q)) = _
  rw [bcol_apply, col_apply, rowsum_apply, expV_apply]
  exact congrArg _ (Finset.sum_congr rfl fun k _ => expV_apply x r k)

/-- The stored value at (r, q): the softmax over the row of the masked logits. -/
theorem pay_apply (P0 : FVec Ideal S128x8192 .f32) (P1 : FVec Ideal S128x1 .f32) (P2 : FVec Ideal S1x8192 .f32) (r : Fin 128) (q : Fin 8192) :
    Gen.k0_pay1 (F := Ideal) P1 P2 P0 (ix2 r q)
      = rowSoftmax (fun k : Fin 8192 => logit (P1 (ix2 r (0 : Fin 1))) (P2 (ix2 (0 : Fin 1) k)) (P0 (ix2 r k))) q := by
  rw [pay_eq, softV_apply]
  exact congrArg (fun f => rowSoftmax f q) (funext fun k => maskedV_apply P0 P1 P2 r k)

end Cert.KernelIdeal.Block

end
-- ==== Proof.KernelValue.lean ====
/-
  The kernel's result array.

  Grid point t stages rows 128·t … 128·t + 127 of the row scores and of the adjacency, and the whole row of
  column scores; what it writes back is those 128 rows of the attention matrix.  The 64 blocks tile the
  8192 × 8192 array, so after the run the result array is the attention matrix of the two score arrays the host
  operations before the launch computed, and of the adjacency argument.
-/
import proofs.«137884_j62234076119834_2_alg».proof.Proof.Gen.KernelIdeal.Value
import proofs.«137884_j62234076119834_2_alg».proof.Proof.KernelBlock
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)
open Cert.KernelIdeal Cert.KernelIdeal.Facts₀ Cert.Attn

namespace Cert.KernelIdeal.Hand

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-score, adjacency and output windows are at block row t, the
    column-score window stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt64 (t : Fin cfg0.N) : t.val < 64 := Nat.lt_of_lt_of_eq t.isLt Gen.N_0

/-- Row r of grid point t's block is row 128·t + r of the array. -/
def rowOf (t : Fin cfg0.N) (r : Fin 128) : Fin 8192 := ⟨128 * t.val + r.val, by have := lt64 t; have := r.isLt; omega⟩

/-! ## The blocks, read where the arrays hold them -/

/-- Entry (r, q) of the output's block at t sits at (128·t + r, q) of the result array. -/
theorem emb_out (t : Fin cfg0.N) (r : Fin 128) (q : Fin 8192) :
    ((cfg0.win 3).blk t).view.emb (ix2 r q) = ix2 (rowOf t r) q := by
  obtain ⟨_, _, _, _, _, _, e6, e7⟩ := idx_facts t
  funext a; apply Fin.ext
  match a with
  | ⟨0, _⟩ => show win0_3.index t (0 : Fin 2) * 128 + 1 * r.val = 128 * t.val + r.val; omega
  | ⟨1, _⟩ => show win0_3.index t (1 : Fin 2) * 8192 + 1 * q.val = q.val; omega

/-- The row-score block at t holds rows 128·t … of the row scores. -/
theorem read_s (c : Dev nD) (t : Fin cfg0.N) (r : Fin 128) :
    (Gen.iblk m c 0 t : FVec Ideal S128x1 .f32) (ix2 r (0 : Fin 1))
      = (Gen.V m c main_v3 : FVec Ideal S8192x1 .f32) (ix2 (rowOf t r) (0 : Fin 1)) := by
  obtain ⟨e0, e1, _, _, _, _, _, _⟩ := idx_facts t
  unfold Gen.iblk
  rw [View.read_apply]
  show Gen.V m c main_v3 _ = Gen.V m c main_v3 _
  refine congrArg _ (funext fun a => Fin.ext ?_)
  match a with
  | ⟨0, _⟩ => show win0_0.index t (0 : Fin 2) * 128 + 1 * r.val = 128 * t.val + r.val; omega
  | ⟨1, _⟩ => show win0_0.index t (1 : Fin 2) * 1 + 1 * 0 = 0; omega

/-- The column-score block is the whole row of column scores, at every point. -/
theorem read_t (c : Dev nD) (t : Fin cfg0.N) (k : Fin 8192) :
    (Gen.iblk m c 1 t : FVec Ideal S1x8192 .f32) (ix2 (0 : Fin 1) k)
      = (Gen.V m c main_v5 : FVec Ideal S1x8192 .f32) (ix2 (0 : Fin 1) k) := by
  obtain ⟨_, _, e2, e3, _, _, _, _⟩ := idx_facts t
  unfold Gen.iblk
  rw [View.read_apply]
  show Gen.V m c main_v5 _ = Gen.V m c main_v5 _
  refine congrArg _ (funext fun a => Fin.ext ?_)
  match a with
  | ⟨0, _⟩ => show win0_1.index t (0 : Fin 2) * 1 + 1 * 0 = 0; omega
  | ⟨1, _⟩ => show win0_1.index t (1 : Fin 2) * 8192 + 1 * k.val = k.val; omega

/-- The adjacency block at t holds rows 128·t … of the adjacency. -/
theorem read_adj (c : Dev nD) (t : Fin cfg0.N) (r : Fin 128) (k : Fin 8192) :
    (Gen.iblk m c 2 t : FVec Ideal S128x8192 .f32) (ix2 r k)
      = (Gen.V m c main_arg1 : FVec Ideal S8192x8192 .f32) (ix2 (rowOf t r) k) := by
  obtain ⟨_, _, _, _, e4, e5, _, _⟩ := idx_facts t
  unfold Gen.iblk
  rw [View.read_apply]
  show Gen.V m c main_arg1 _ = Gen.V m c main_arg1 _
  refine congrArg _ (funext fun a => Fin.ext ?_)
  match a with
  | ⟨0, _⟩ => show win0_2.index t (0 : Fin 2) * 128 + 1 * r.val = 128 * t.val + r.val; omega
  | ⟨1, _⟩ => show win0_2.index t (1 : Fin 2) * 8192 + 1 * k.val = k.val; omega

/-! ## What every point writes back, and the array after the run -/

/-- The attention matrix of the arrays the region finds: row scores, the row of column scores, adjacency. -/
def regionOut (c : Dev nD) : FVec Ideal S8192x8192 .f32 := fun i =>
  attnAt (fun p : Fin 8192 => (Gen.V m c main_v3 : FVec Ideal S8192x1 .f32) (ix2 p (0 : Fin 1)))
    (fun k : Fin 8192 => (Gen.V m c main_v5 : FVec Ideal S1x8192 .f32) (ix2 (0 : Fin 1) k))
    (fun (p k : Fin 8192) => (Gen.V m c main_arg1 : FVec Ideal S8192x8192 .f32) (ix2 p k)) (i 0) (i 1)

/-- Point t writes back block t of that matrix. -/
theorem flushed_eq (c : Dev nD) (t : Fin cfg0.N) :
    (Gen.dats m 0 c).flushed 3 t = ((cfg0.win 3).blk t).view.read (Elt Ideal) (regionOut m c) := by
  rw [Value.flushed3]
  unfold Gen.out0_3
  rw [View.canon_unit_zero hz]
  simp only [View.ld_unit_zero (S := S128x1) hz, View.ld_unit_zero (S := S1x8192) hz, View.ld_unit_zero (S := S128x8192) hz]
  funext j
  obtain ⟨r, q, rfl⟩ : ∃ (r : Fin 128) (q : Fin 8192), j = ix2 r q := ⟨j 0, j 1, eq_ix2 j⟩
  show Gen.k0_pay1 (F := Ideal) (Gen.iblk m c 0 t) (Gen.iblk m c 1 t) (Gen.iblk m c 2 t) (ix2 r q)
    = regionOut m c (((cfg0.win 3).blk t).view.emb (ix2 r q))
  refine (Block.pay_apply (Gen.iblk m c 2 t) (Gen.iblk m c 0 t) (Gen.iblk m c 1 t) r q).trans ?_
  rw [emb_out]
  show rowSoftmax _ q = attnAt _ _ _ (rowOf t r) q
  unfold attnAt
  refine congrArg (fun f => rowSoftmax f q) (funext fun k => ?_)
  rw [read_s m c t r, read_t m c t k, read_adj m c t r k]

/-- An index of the array is in point t's block iff each coordinate is in the block's range on its axis. -/
theorem mem_blk (t : Fin cfg0.N) (i : S8192x8192.Idx) :
    i ∈ ((cfg0.win 3).blk t).view.set ↔ ∀ a : Fin 2, win0_3.index t a * S128x8192.size a ≤ (i a).val ∧ (i a).val < win0_3.index t a * S128x8192.size a + S128x8192.size a := by
  show i ∈ ((View.whole main_v6).slice (win0_3.rect t)).set ↔ _
  rw [View.set_slice_whole, Rect.mem_set_unit]
  exact Iff.rfl

/-- Every one of the 64 block rows is some grid point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- The 64 blocks of 128 rows cover the array: row i is in the block of point i / 128. -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 128, by omega⟩
  have q0 : win0_3.index t (0 : Fin 2) = (i 0).val / 128 := congrFun ht 0
  have q1 : win0_3.index t (1 : Fin 2) = 0 := congrFun ht 1
  refine ⟨t, Gen.flush0_3 t, ?_⟩
  rw [mem_blk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 8192 ≤ (i 1).val ∧ (i 1).val < win0_3.index t (1 : Fin 2) * 8192 + 8192; omega

/-- After the run the result array is the attention matrix of the arrays the region found. -/
theorem final (c : Dev nD) : (Gen.dats m 0 c).arrAt 3 cfg0.N = regionOut m c :=
  (Gen.dats m 0 c).arrAt_eq_of_cover 3 (regionOut m c) (fun t _ => flushed_eq m c t) cover

/-! ## The arrays the region finds, as terms of the arguments -/

/-- The row scores: (h · w) · a[0:64]. -/
def scoreS (h : FVec Ideal S8192x128 .f32) (w : FVec Ideal S128x64 .f32) (a : FVec Ideal S128x1 .f32) : FVec Ideal S8192x1 .f32 :=
  Host.dotGeneral dot_S8192x64_S64x1_S8192x1_1_0_0_1_n_n none (Host.dotGeneral dot_S8192x128_S128x64_S8192x64_1_0_0_1_n_n none h w)
    (extractStridedSlice S64x1 ![0, 0] a slices_S128x1_S64x1_0_0)

/-- The column scores: (h · w) · a[64:128]. -/
def scoreT (h : FVec Ideal S8192x128 .f32) (w : FVec Ideal S128x64 .f32) (a : FVec Ideal S128x1 .f32) : FVec Ideal S8192x1 .f32 :=
  Host.dotGeneral dot_S8192x64_S64x1_S8192x1_1_0_0_1_n_n none (Host.dotGeneral dot_S8192x128_S128x64_S8192x64_1_0_0_1_n_n none h w)
    (extractStridedSlice S64x1 ![64, 0] a slices_S128x1_S64x1_64_0)

/-- The host operations before the launch leave the row scores in the first window's array. -/
theorem V_s (c : Dev nD) : (Gen.V m c main_v3 : FVec Ideal S8192x1 .f32)
    = scoreS (m ((c : Thread nD τ).loc main_arg0)) (m ((c : Thread nD τ).loc main_arg2)) (m ((c : Thread nD τ).loc main_arg3)) := by
  dsimp only [Gen.V, Gen.hostOps0]
  after_results
  rfl

/-- and the column scores, laid out as one row, in the second window's array. -/
theorem V_t (c : Dev nD) : (Gen.V m c main_v5 : FVec Ideal S1x8192 .f32)
    = shapeCast S1x8192 (scoreT (m ((c : Thread nD τ).loc main_arg0)) (m ((c : Thread nD τ).loc main_arg2)) (m ((c : Thread nD τ).loc main_arg3))) shapeCasts_S8192x1_S1x8192 := by
  dsimp only [Gen.V, Gen.hostOps0]
  after_results
  rfl

/-- The column of 8192 scores laid out as one row reads, at column k, entry k. -/
theorem row_of_col_apply (z : FVec Ideal S8192x1 .f32) (k : Fin 8192) :
    shapeCast S1x8192 z shapeCasts_S8192x1_S1x8192 (ix2 (0 : Fin 1) k) = z (ix2 k (0 : Fin 1)) := by
  refine shapeCast_apply z _ (ix2 (0 : Fin 1) k) (ix2 k (0 : Fin 1)) ?_
  rw [Shape.rowMajor_val_two, Shape.rowMajor_val_two]
  show k.val * 1 + 0 = 0 * 8192 + k.val
  omega

/-- So the region's matrix is the attention matrix of the two score columns and the adjacency argument. -/
theorem regionOut_eq (c : Dev nD) : regionOut m c
    = attn (scoreS (m ((c : Thread nD τ).loc main_arg0)) (m ((c : Thread nD τ).loc main_arg2)) (m ((c : Thread nD τ).loc main_arg3)))
        (scoreT (m ((c : Thread nD τ).loc main_arg0)) (m ((c : Thread nD τ).loc main_arg2)) (m ((c : Thread nD τ).loc main_arg3)))
        (m ((c : Thread nD τ).loc main_arg1)) := by
  unfold regionOut attn
  rw [V_s m c, V_t m c, Gen.V_main_arg1 m c]
  funext i
  refine congrArg (fun f => attnAt _ f _ (i 0) (i 1)) (funext fun k => ?_)
  exact row_of_col_apply _ k

/-- Every fair execution of the kernel's program ends with the result array at the attention matrix of the
    arguments' scores and adjacency, the arguments unchanged. -/
theorem run : θ_run defs (onTc (τ := τ) (main (F := Ideal))) ⟨m, fun _ => 0, ρ⟩ fun r => ∀ c : Dev nD,
      r.2.mem ((c : Thread nD τ).loc main_v6)
        = attn (scoreS (m ((c : Thread nD τ).loc main_arg0)) (m ((c : Thread nD τ).loc main_arg2)) (m ((c : Thread nD τ).loc main_arg3)))
            (scoreT (m ((c : Thread nD τ).loc main_arg0)) (m ((c : Thread nD τ).loc main_arg2)) (m ((c : Thread nD τ).loc main_arg3)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (regionOut_eq m c)), (h c).2⟩)
    (Value.run_blocks m ρ)

end Cert.KernelIdeal.Hand

end
-- ==== Proof.RefRun.lean ====
/-
  The reference's run, read back.

  The reference is a straight line of host operations once its three outlined functions (the leaky
  rectifier, and the two selects it and the mask use) are put in line at their call sites: thirty-eight
  operations.  Every fair execution ends with each buffer at the fold of these operations over the
  launch contents; the result buffer then holds `refOut` of the four argument arrays, the arguments as
  launched.
-/
import proofs.«137884_j62234076119834_2_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in order, the called functions' operations at their call sites over the calls' own buffers. -/
abbrev ops : List (HloOp τ sig (Elt F)) :=
  [ binary main_arg0 main_arg2 main_v0 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    unary main_arg3 main_v2 ((extractStridedSlice S64x1 ![64, 0] · slices_S128x1_S64x1_64_0) : (⟨S128x1, .f32⟩ : BufTy).Contents (Elt F) → (⟨S64x1, .f32⟩ : BufTy).Contents (Elt F)),
    binary main_v0 main_v1 main_v3 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    binary main_v0 main_v2 main_v4 ((fun l r => Host.dotGeneral dot_S8192x64_S64x1_S8192x1_1_0_0_1_n_n none l r) : (⟨S8192x64, .f32⟩ : BufTy).Contents (Elt F) → (⟨S64x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v3 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v8) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v8) main_call0.v4 mulf,
    TRef.ternary main_call0.v1 (.of main_v8) main_call0.v4 main_call0.call0.v0 select,
    nullary main_cst_0 (constant S_ .f32 0x00000000#32),
    unary main_cst_0 main_v10 (broadcastInDim S8192x8192 ![] bcast_S_S8192x8192 : (⟨S_, .f32⟩ : BufTy).Contents (Elt F) → (⟨S8192x8192, .f32⟩ : BufTy).Contents (Elt F)),
    binary main_arg1 main_v10 main_v11 (cmpf .ogt : (⟨S8192x8192, .f32⟩ : BufTy).Contents (Elt F) → (⟨S8192x8192, .f32⟩ : BufTy).Contents (Elt F) → (⟨S8192x8192, .i1⟩ : BufTy).Contents (Elt F)),
    nullary main_cst_1 (constant S_ .f32 0xD368D4A5#32),
    TRef.unary (.of main_cst_1) main_call1.v0 id,
    TRef.unary main_call1.v0 main_call1.v1 (broadcastInDim S8192x8192 ![] bcast_S_S8192x8192),
    TRef.ternary (.of main_v11) (.of main_v9) main_call1.v1 main_call1.v2 select,
    nullary main_cst_2 (constant S_ .f32 0xFF800000#32),
    binary main_v12 main_cst_2 main_v13 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v14 (broadcastInDim S8192 ![] bcast_S_S8192 : (⟨S_, .f32⟩ : BufTy).Contents (Elt F) → (⟨S8192, .f32⟩ : BufTy).Contents (Elt F)),
    binary main_v14 main_v13 main_v15 (maximumf : (⟨S8192, .f32⟩ : BufTy).Contents (Elt F) → (⟨S8192, .f32⟩ : BufTy).Contents (Elt F) → (⟨S8192, .f32⟩ : BufTy).Contents (Elt F)),
    unary main_v15 main_v16 (broadcastInDim S8192x1 ![0] bcast_S8192_S8192x1_0 : (⟨S8192, .f32⟩ : BufTy).Contents (Elt F) → (⟨S8192x1, .f32⟩ : BufTy).Contents (Elt F)),
    unary main_v16 main_v17 (broadcastInDim S8192x8192 ![0, 1] bcast_S8192x1_S8192x8192_0_1 : (⟨S8192x1, .f32⟩ : BufTy).Contents (Elt F) → (⟨S8192x8192, .f32⟩ : BufTy).Contents (Elt F)),
    binary main_v12 main_v17 main_v18 (subf : (⟨S8192x8192, .f32⟩ : BufTy).Contents (Elt F) → (⟨S8192x8192, .f32⟩ : BufTy).Contents (Elt F) → (⟨S8192x8192, .f32⟩ : BufTy).Contents (Elt F)),
    unary main_v18 main_v19 (Host.exp : (⟨S8192x8192, .f32⟩ : BufTy).Contents (Elt F) → (⟨S8192x8192, .f32⟩ : BufTy).Contents (Elt F)),
    nullary main_cst_4 (constant S_ .f32 0x00000000#32),
    binary main_v19 main_cst_4 main_v20 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v20 main_v21 (broadcastInDim S8192x1 ![0] bcast_S8192_S8192x1_0 : (⟨S8192, .f32⟩ : BufTy).Contents (Elt F) → (⟨S8192x1, .f32⟩ : BufTy).Contents (Elt F)),
    unary main_v21 main_v22 (broadcastInDim S8192x8192 ![0, 1] bcast_S8192x1_S8192x8192_0_1 : (⟨S8192x1, .f32⟩ : BufTy).Contents (Elt F) → (⟨S8192x8192, .f32⟩ : BufTy).Contents (Elt F)),
    binary main_v19 main_v22 main_v23 (Host.divf : (⟨S8192x8192, .f32⟩ : BufTy).Contents (Elt F) → (⟨S8192x8192, .f32⟩ : BufTy).Contents (Elt F) → (⟨S8192x8192, .f32⟩ : BufTy).Contents (Elt F)) ]

set_option maxRecDepth 2048 in
/-- @main is that straight line: the functions unfolded at their calls, sequencing reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., unary_bufs_sub .., binary_bufs_sub .., nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩

/-- Every fair execution of the reference ends with each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the arguments -/

/-- The row scores: (h · w) · a[0:64]. -/
def scoreS (h : FVec F S8192x128 .f32) (w : FVec F S128x64 .f32) (a : FVec F S128x1 .f32) : FVec F S8192x1 .f32 :=
  Host.dotGeneral dot_S8192x64_S64x1_S8192x1_1_0_0_1_n_n none (Host.dotGeneral dot_S8192x128_S128x64_S8192x64_1_0_0_1_n_n none h w)
    (extractStridedSlice S64x1 ![0, 0] a slices_S128x1_S64x1_0_0)

/-- The column scores: (h · w) · a[64:128]. -/
def scoreT (h : FVec F S8192x128 .f32) (w : FVec F S128x64 .f32) (a : FVec F S128x1 .f32) : FVec F S8192x1 .f32 :=
  Host.dotGeneral dot_S8192x64_S64x1_S8192x1_1_0_0_1_n_n none (Host.dotGeneral dot_S8192x128_S128x64_S8192x64_1_0_0_1_n_n none h w)
    (extractStridedSlice S64x1 ![64, 0] a slices_S128x1_S64x1_64_0)

/-- The logits s_i + t_j: the row scores along the columns plus the transposed column scores along the rows. -/
def logitsR (s t : FVec F S8192x1 .f32) : FVec F S8192x8192 .f32 :=
  addf (broadcastInDim S8192x8192 ![0, 1] bcast_S8192x1_S8192x8192_0_1 s)
    (broadcastInDim S8192x8192 ![0, 1] bcast_S1x8192_S8192x8192_0_1 (transpose S1x8192 [1, 0] t transposes_S8192x1_S1x8192_1_0))

/-- The leaky rectifier as the reference writes it: x where x ≥ 0, 0.2 · x elsewhere. -/
def lreluR (x : FVec F S8192x8192 .f32) : FVec F S8192x8192 .f32 :=
  select (cmpf .oge x (broadcastInDim S8192x8192 ![] bcast_S_S8192x8192 (constant S_ .f32 0x00000000#32))) x
    (mulf (broadcastInDim S8192x8192 ![] bcast_S_S8192x8192 (constant S_ .f32 0x3E4CCCCD#32)) x)

/-- The mask: e where the adjacency is positive, the mask value elsewhere. -/
def maskR (adj e : FVec F S8192x8192 .f32) : FVec F S8192x8192 .f32 :=
  select (cmpf .ogt adj (broadcastInDim S8192x8192 ![] bcast_S_S8192x8192 (constant S_ .f32 0x00000000#32))) e
    (broadcastInDim S8192x8192 ![] bcast_S_S8192x8192 (constant S_ .f32 0xD368D4A5#32))

/-- exp (x - rowmax x), the row maximum taken from -∞ and once more against -∞. -/
def expR (x : FVec F S8192x8192 .f32) : FVec F S8192x8192 .f32 :=
  Host.exp (subf x (broadcastInDim S8192x8192 ![0, 1] bcast_S8192x1_S8192x8192_0_1 (broadcastInDim S8192x1 ![0] bcast_S8192_S8192x1_0
    (maximumf (broadcastInDim S8192 ![] bcast_S_S8192 (constant S_ .f32 0xFF800000#32))
      (Host.reduce FloatOps.maximumf x (constant S_ .f32 0xFF800000#32) reducesTo_S8192x8192_S8192_d1 h_S_)))))

/-- The softmax along the rows. -/
def softR (x : FVec F S8192x8192 .f32) : FVec F S8192x8192 .f32 :=
  Host.divf (expR x) (broadcastInDim S8192x8192 ![0, 1] bcast_S8192x1_S8192x8192_0_1 (broadcastInDim S8192x1 ![0] bcast_S8192_S8192x1_0
    (Host.reduceAdd (expR x) (constant S_ .f32 0x00000000#32) reducesTo_S8192x8192_S8192_d1 h_S_)))

/-- The reference's result as one term of its four arguments. -/
def refOut (h : FVec F S8192x128 .f32) (adj : FVec F S8192x8192 .f32) (w : FVec F S128x64 .f32) (a : FVec F S128x1 .f32) : FVec F S8192x8192 .f32 :=
  softR (maskR adj (lreluR (logitsR (scoreS h w a) (scoreT h w a))))

attribute [local irreducible] Host.reduce Host.reduceAdd in
set_option maxRecDepth 8192 in
/-- The fold at the result buffer is that term of the fold's start at the argument buffers. -/
theorem out_eq (V : Valuation τ sig (Elt F)) :
    after ops V (main_v23 : DevRef τ sig)
      = refOut (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- Every fair execution of the reference terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (out_eq _),
      (h c main_arg0).trans (arg0_eq _), (h c main_arg1).trans (arg1_eq _), (h c main_arg2).trans (arg2_eq _), (h c main_arg3).trans (arg3_eq _)⟩)
    (run_fold m ρ)

end Cert.ReferenceIdeal.Hand

end
-- ==== Proof.RefValue.lean ====
/-
  The reference's result, read index by index.

  Its term is the softmax along the rows of the masked, rectified logits s_p + t_q, every step a host
  operation on whole 8192 × 8192 arrays.  Read at (p, q) it is the attention matrix's entry: the row
  maximum and the row sum are the host's reductions over the row's 8192 columns, the rectifier's
  weak test x ≥ 0 gives the same value as the strict one.
-/
import proofs.«137884_j62234076119834_2_alg».proof.Proof.RefRun
import proofs.«137884_j62234076119834_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open Cert.ReferenceIdeal Cert.ReferenceIdeal.Facts₀ Cert.Attn

namespace Cert.ReferenceIdeal.Hand

/-! ## The layout operations, read at an index -/

/-- A scalar broadcast over the matrix reads the scalar. -/
theorem bsplat_apply (v : FVec Ideal S_ .f32) (i : S8192x8192.Idx) :
    broadcastInDim S8192x8192 ![] bcast_S_S8192x8192 v i = v ix0 :=
  broadcastInDim_apply _ _ v i ix0 fun a => a.elim0

/-- A scalar broadcast over a vector reads the scalar. -/
theorem vsplat_apply (v : FVec Ideal S_ .f32) (i : S8192.Idx) :
    broadcastInDim S8192 ![] bcast_S_S8192 v i = v ix0 :=
  broadcastInDim_apply _ _ v i ix0 fun a => a.elim0

/-- A column broadcast along the columns reads its row's entry. -/
theorem bcol_apply (v : FVec Ideal S8192x1 .f32) (p q : Fin 8192) :
    broadcastInDim S8192x8192 ![0, 1] bcast_S8192x1_S8192x8192_0_1 v (ix2 p q) = v (ix2 p (0 : Fin 1)) := by
  refine broadcastInDim_apply _ _ v (ix2 p q) (ix2 p (0 : Fin 1)) fun a => ?_
  match a with
  | ⟨0, _⟩ => show p.val = (if (8192 : Nat) = 1 then 0 else p.val); rw [if_neg (by decide)]
  | ⟨1, _⟩ => show 0 = (if (1 : Nat) = 1 then 0 else q.val); rw [if_pos rfl]

/-- A row broadcast along the rows reads its column's entry. -/
theorem brow_apply (v : FVec Ideal S1x8192 .f32) (p q : Fin 8192) :
    broadcastInDim S8192x8192 ![0, 1] bcast_S1x8192_S8192x8192_0_1 v (ix2 p q) = v (ix2 (0 : Fin 1) q) := by
  refine broadcastInDim_apply _ _ v (ix2 p q) (ix2 (0 : Fin 1) q) fun a => ?_
  match a with
  | ⟨0, _⟩ => show 0 = (if (1 : Nat) = 1 then 0 else p.val); rw [if_pos rfl]
  | ⟨1, _⟩ => show q.val = (if (8192 : Nat) = 1 then 0 else q.val); rw [if_neg (by decide)]

/-- The transposed column reads, at column q, entry q. -/
theorem transp_apply (t : FVec Ideal S8192x1 .f32) (q : Fin 8192) :
    transpose S1x8192 [1, 0] t transposes_S8192x1_S1x8192_1_0 (ix2 (0 : Fin 1) q) = t (ix2 q (0 : Fin 1)) :=
  transpose_ix2_apply t _ (0 : Fin 1) q

/-- A vector viewed as a column reads, at row p, entry p. -/
theorem vcol_apply (z : FVec Ideal S8192 .f32) (p : Fin 8192) :
    broadcastInDim S8192x1 ![0] bcast_S8192_S8192x1_0 z (ix2 p (0 : Fin 1)) = z (ix1 p) := by
  refine broadcastInDim_apply _ _ z (ix2 p (0 : Fin 1)) (ix1 p) fun a => ?_
  match a with
  | ⟨0, _⟩ => show p.val = (if (8192 : Nat) = 1 then 0 else p.val); rw [if_neg (by decide)]

/-- Row p with column k put back is the index (p, k). -/
theorem lift_row (h : S8192x8192.Reduces [1] S8192) (p : Fin 8192) (k : Fin (S8192x8192.size 1)) :
    h.lift (ix1 p) k = ix2 p (⟨k.val, k.isLt⟩ : Fin 8192) := by
  funext c; apply Fin.ext
  fin_cases c <;> rfl

/-! ## The masked logits -/

theorem logitsR_apply (s t : FVec Ideal S8192x1 .f32) (p q : Fin 8192) :
    logitsR s t (ix2 p q) = s (ix2 p (0 : Fin 1)) + t (ix2 q (0 : Fin 1)) := by
  unfold logitsR
  show broadcastInDim S8192x8192 ![0, 1] bcast_S8192x1_S8192x8192_0_1 s (ix2 p q)
    + broadcastInDim S8192x8192 ![0, 1] bcast_S1x8192_S8192x8192_0_1 (transpose S1x8192 [1, 0] t transposes_S8192x1_S1x8192_1_0) (ix2 p q) = _
  rw [bcol_apply, brow_apply, transp_apply]

/-- The mask over the reference's rectifier is the masked logit with the strict rectifier. -/
theorem maskR_lreluR_apply (adj x : FVec Ideal S8192x8192 .f32) (i : S8192x8192.Idx) :
    maskR adj (lreluR x) i = Scalar.select (Ideal.cmp .ogt (adj i) zeroW) (lrelu (x i)) maskW := by
  unfold maskR lreluR
  show Scalar.select (Ideal.cmp .ogt (adj i) (broadcastInDim S8192x8192 ![] bcast_S_S8192x8192 (constant (F := Ideal) S_ .f32 0x00000000#32) i))
      (Scalar.select (Ideal.cmp .oge (x i) (broadcastInDim S8192x8192 ![] bcast_S_S8192x8192 (constant (F := Ideal) S_ .f32 0x00000000#32) i)) (x i)
        (broadcastInDim S8192x8192 ![] bcast_S_S8192x8192 (constant (F := Ideal) S_ .f32 0x3E4CCCCD#32) i * x i))
      (broadcastInDim S8192x8192 ![] bcast_S_S8192x8192 (constant (F := Ideal) S_ .f32 0xD368D4A5#32) i) = _
  simp only [bsplat_apply]
  exact congrArg (fun e => Scalar.select (Ideal.cmp .ogt (adj i) zeroW) e maskW) (lrelu_ge (x i))

/-! ## The softmax along the rows -/

theorem hostExp_apply (y : FVec Ideal S8192x8192 .f32) (i : S8192x8192.Idx) : Host.exp y i = Ideal.exp (y i) := rfl

theorem hostDivf_apply (a b : FVec Ideal S8192x8192 .f32) (i : S8192x8192.Idx) : Host.divf a b i = Ideal.div (a i) (b i) := rfl

/-- The host's row maximum from -∞ is the row's maximum. -/
theorem hostRowMax_apply (x : FVec Ideal S8192x8192 .f32) (p : Fin 8192) :
    Host.reduce FloatOps.maximumf x (constant (F := Ideal) S_ .f32 0xFF800000#32) reducesTo_S8192x8192_S8192_d1 h_S_ (ix1 p)
      = rowMax (fun k : Fin 8192 => x (ix2 p k)) := by
  have h : S8192x8192.Reduces [1] S8192 := by decide
  rw [Host.reduce_eq_fold_single FloatOps.maximumf x _ reducesTo_S8192x8192_S8192_d1 h h_S_]
  have hf : (x ∘ h.lift (ix1 p)) = fun k : Fin 8192 => x (ix2 p k) := funext fun k => congrArg x (lift_row h p k)
  exact congrArg (fun f => Finset.fold max ninfW f (Finset.univ : Finset (Fin 8192))) hf

/-- Taken once more against -∞ it is still the row's maximum. -/
theorem rowmaxR_apply (x : FVec Ideal S8192x8192 .f32) (p : Fin 8192) :
    maximumf (broadcastInDim S8192 ![] bcast_S_S8192 (constant (F := Ideal) S_ .f32 0xFF800000#32))
        (Host.reduce FloatOps.maximumf x (constant (F := Ideal) S_ .f32 0xFF800000#32) reducesTo_S8192x8192_S8192_d1 h_S_) (ix1 p)
      = rowMax (fun k : Fin 8192 => x (ix2 p k)) := by
  rw [maximumf_apply, vsplat_apply, hostRowMax_apply]
  exact max_ninf_rowMax _

/-- The host's row sum from zero is the sum over the row's columns. -/
theorem rowsumR_apply (x : FVec Ideal S8192x8192 .f32) (p : Fin 8192) :
    Host.reduceAdd x (constant (F := Ideal) S_ .f32 0x00000000#32) reducesTo_S8192x8192_S8192_d1 h_S_ (ix1 p) = ∑ k : Fin 8192, x (ix2 p k) := by
  have h : S8192x8192.Reduces [1] S8192 := by decide
  refine (Ideal.hostReduceAdd_single reducesTo_S8192x8192_S8192_d1 h x (Ideal.ofBits .f32 0x00000000#32) (ix1 p)).trans ?_
  rw [Ideal.ofBits_zero_f32, zero_add]
  exact Finset.sum_congr rfl fun k _ => congrArg x (lift_row h p k)

/-- exp (x - rowmax) at (p, q). -/
theorem expR_apply (x : FVec Ideal S8192x8192 .f32) (p q : Fin 8192) :
    expR x (ix2 p q) = Ideal.exp (x (ix2 p q) - rowMax (fun k : Fin 8192 => x (ix2 p k))) := by
  unfold expR
  rw [hostExp_apply, subf_apply, bcol_apply, vcol_apply, rowmaxR_apply]

/-- The reference's softmax at (p, q) is the softmax of row p at q. -/
theorem softR_apply (x : FVec Ideal S8192x8192 .f32) (p q : Fin 8192) :
    softR x (ix2 p q) = rowSoftmax (fun k : Fin 8192 => x (ix2 p k)) q := by
  unfold softR rowSoftmax
  rw [hostDivf_apply, bcol_apply, vcol_apply, rowsumR_apply, expR_apply]
  exact congrArg _ (Finset.sum_congr rfl fun k _ => expR_apply x p k)

/-- The reference's result is the attention matrix of its two score columns and its adjacency argument. -/
theorem refOut_eq (h : FVec Ideal S8192x128 .f32) (adj : FVec Ideal S8192x8192 .f32) (w : FVec Ideal S128x64 .f32) (a : FVec Ideal S128x1 .f32) :
    refOut h adj w a = attn (scoreS h w a) (scoreT h w a) adj := by
  funext i
  obtain ⟨p, q, rfl⟩ : ∃ (p : Fin 8192) (q : Fin 8192), i = ix2 p q := ⟨i 0, i 1, eq_ix2 i⟩
  unfold refOut
  rw [softR_apply, attn_apply]
  unfold attnAt
  refine congrArg (fun f => rowSoftmax f q) (funext fun k => ?_)
  rw [maskR_lreluR_apply, logitsR_apply]
  unfold logit
  rfl

end Cert.ReferenceIdeal.Hand

end
-- ==== Proof.lean ====
/-
  The kernel computes one layer's graph-attention weights: with Wh = h · w, row scores s = Wh · a[0:64] and
  column scores t = Wh · a[64:128], entry (i, j) of the result is the softmax over row i of the masked
  logits — the leaky rectifier (slope 0.2) of s_i + t_j where adj_ij > 0, a fixed large negative number
  elsewhere.  The host computes the scores; the kernel, 128 rows per grid point with all 8192 columns
  resident, masks, takes the row maximum, exponentiates, sums and divides.  The reference does the same on
  whole arrays: a leaky rectifier, a select and a softmax along the rows.

  On the extended reals the two agree entry by entry, with no appeal to the inputs being finite: the
  scores are the same host operations of the same arguments; the kernel's strict test x > 0 and the
  reference's x ≥ 0 give one rectifier, since x and 0.2 · x are both 0 at x = 0; the reference's extra
  maximum against -∞ changes nothing; a lane reduction and a host reduction over one row are the same
  maximum and the same sum; and the 64 blocks of 128 rows tile the array.  Nothing of the kernel was
  rewritten for the ideal reading, so `preserves` has nothing to state.
-/
import proofs.«137884_j62234076119834_2_alg».proof.Defs
import proofs.«137884_j62234076119834_2_alg».proof.Proof.Gen.Kernel
import proofs.«137884_j62234076119834_2_alg».proof.Proof.Gen.Kernel.Skeleton
import proofs.«137884_j62234076119834_2_alg».proof.Proof.Gen.Kernel.Launch
import proofs.«137884_j62234076119834_2_alg».proof.Proof.Gen.Kernel.Points
import proofs.«137884_j62234076119834_2_alg».proof.Proof.Gen.Kernel.Frame
import proofs.«137884_j62234076119834_2_alg».proof.Proof.Gen.KernelIdeal
import proofs.«137884_j62234076119834_2_alg».proof.Proof.Gen.KernelIdeal.Skeleton
import proofs.«137884_j62234076119834_2_alg».proof.Proof.Gen.KernelIdeal.Launch
import proofs.«137884_j62234076119834_2_alg».proof.Proof.Gen.KernelIdeal.Points
import proofs.«137884_j62234076119834_2_alg».proof.Proof.Gen.KernelIdeal.Frame
import proofs.«137884_j62234076119834_2_alg».proof.Proof.Gen.KernelIdeal.Value
import proofs.«137884_j62234076119834_2_alg».proof.Proof.Gen.ReferenceIdeal
import proofs.«137884_j62234076119834_2_alg».proof.Proof.Gen.Pre_finite_inputs
import proofs.«137884_j62234076119834_2_alg».proof.Proof.KernelValue
import proofs.«137884_j62234076119834_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program at the word level terminates, faults nowhere and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- No operation of the kernel was rewritten for the ideal reading. -/
theorem preserves : Cert.preserves_Kernel_KernelIdeal := trivial

/-- The two programs' records of the two matrix products are the same data. -/
theorem dot1_eq : Cert.ReferenceIdeal.dot_S8192x128_S128x64_S8192x64_1_0_0_1_n_n = Cert.KernelIdeal.dot_S8192x128_S128x64_S8192x64_1_0_0_1_n_n := rfl
theorem dot2_eq : Cert.ReferenceIdeal.dot_S8192x64_S64x1_S8192x1_1_0_0_1_n_n = Cert.KernelIdeal.dot_S8192x64_S64x1_S8192x1_1_0_0_1_n_n := rfl

/-- So the reference's row scores are the kernel program's, -/
theorem scoreS_eq (h : FVec Ideal Cert.KernelIdeal.S8192x128 .f32) (w : FVec Ideal Cert.KernelIdeal.S128x64 .f32) (a : FVec Ideal Cert.KernelIdeal.S128x1 .f32) :
    Cert.ReferenceIdeal.Hand.scoreS (F := Ideal) h w a = Cert.KernelIdeal.Hand.scoreS h w a := by
  unfold Cert.ReferenceIdeal.Hand.scoreS Cert.KernelIdeal.Hand.scoreS
  rw [dot1_eq, dot2_eq]

/-- and its column scores too. -/
theorem scoreT_eq (h : FVec Ideal Cert.KernelIdeal.S8192x128 .f32) (w : FVec Ideal Cert.KernelIdeal.S128x64 .f32) (a : FVec Ideal Cert.KernelIdeal.S128x1 .f32) :
    Cert.ReferenceIdeal.Hand.scoreT (F := Ideal) h w a = Cert.KernelIdeal.Hand.scoreT h w a := by
  unfold Cert.ReferenceIdeal.Hand.scoreT Cert.KernelIdeal.Hand.scoreT
  rw [dot1_eq, dot2_eq]

/-- Both programs end with the attention matrix of the same scores and the same adjacency. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2, Cert.ReferenceIdeal.Hand.refOut_eq, scoreS_eq, scoreT_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
